-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S32000x256 : Shape := ⟨2, ![32000, 256]⟩
abbrev S256x256 : Shape := ⟨2, ![256, 256]⟩
abbrev S256 : Shape := ⟨1, ![256]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : IVec S16x256 32) (main_arg1 : FVec F S32000x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S32000x256 .f32 := Host.absf main_arg1
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S16x256 : Shape := ⟨2, ![16, 256]⟩
abbrev S32000x256 : Shape := ⟨2, ![32000, 256]⟩
abbrev S256x256 : Shape := ⟨2, ![256, 256]⟩
abbrev S256 : Shape := ⟨1, ![256]⟩
abbrev S_ : Shape := ⟨0, ![]⟩
abbrev S16x256x1 : Shape := ⟨3, ![16, 256, 1]⟩
abbrev S16x256x256 : Shape := ⟨3, ![16, 256, 256]⟩
abbrev S1x256 : Shape := ⟨2, ![1, 256]⟩
abbrev S16x1x256 : Shape := ⟨3, ![16, 1, 256]⟩
abbrev S1x256x256 : Shape := ⟨3, ![1, 256, 256]⟩
abbrev S1x1x256 : Shape := ⟨3, ![1, 1, 256]⟩
abbrev S8x256 : Shape := ⟨2, ![8, 256]⟩

abbrev nBuf : Space → Nat
  | .hbm => 25
  | .vmem => 12
  | .smem => 0
  | _ => 0

abbrev bufTy : (tb : Table) → Fin (tcTables nBuf tb) → BufTy
  | .hbm, ⟨0, _⟩ => ⟨S16x256, .i32⟩
  | .hbm, ⟨1, _⟩ => ⟨S32000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S16x256, .i32⟩
  | .hbm, ⟨10, _⟩ => ⟨S16x256, .i1⟩
  | .hbm, ⟨11, _⟩ => ⟨S_, .i32⟩
  | .hbm, ⟨12, _⟩ => ⟨S16x256, .i32⟩
  | .hbm, ⟨13, _⟩ => ⟨S16x256, .i32⟩
  | .hbm, ⟨14, _⟩ => ⟨S16x256, .i32⟩
  | .hbm, ⟨15, _⟩ => ⟨S16x256x1, .i32⟩
  | .hbm, ⟨16, _⟩ => ⟨S16x256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S16x1x256, .f32⟩
  | .hbm, ⟨24, _⟩ => ⟨S16x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x1x256, .f32⟩
  | .local _ .vmem, ⟨9, _⟩ => ⟨S1x1x256, .f32⟩
  | .local _ .vmem, ⟨10, _⟩ => ⟨S256x256, .f32⟩
  | .local _ .vmem, ⟨11, _⟩ => ⟨S256x256, .f32⟩
  | _, _ => ⟨S16x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v27 : BitVec 32 := Scalar.addi c0_i32 c32_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v43 : BitVec 32 := Scalar.muli arg11 c8_i32
  v43
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v43 : BitVec 32 := Scalar.muli arg11 c8_i32
  let v44 : BitVec 32 := v43
  let v45 : Index := Scalar.indexCast v44
  let c0_30 : Index := 0#32
  ![v45.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  transposes_S256x256_S256x256_1_0 : S256x256.Transposes [1, 0] S256x256
  shapeCasts_S256_S1x256 : S256.ShapeCasts S1x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  h_S8x256 : 0 < S8x256.numel
  slices_S8x256_o0_0_S1x256 : S8x256.Slices ![0, 0] S1x256
  slices_S8x256_o1_0_S1x256 : S8x256.Slices ![1, 0] S1x256
  slices_S8x256_o2_0_S1x256 : S8x256.Slices ![2, 0] S1x256
  slices_S8x256_o3_0_S1x256 : S8x256.Slices ![3, 0] S1x256
  slices_S8x256_o4_0_S1x256 : S8x256.Slices ![4, 0] S1x256
  slices_S8x256_o5_0_S1x256 : S8x256.Slices ![5, 0] S1x256
  slices_S8x256_o6_0_S1x256 : S8x256.Slices ![6, 0] S1x256
  slices_S8x256_o7_0_S1x256 : S8x256.Slices ![7, 0] S1x256
  shapeCasts_S1x256_S256 : S1x256.ShapeCasts S256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  shapeCasts_S16x1x256_S16x256 : S16x1x256.ShapeCasts S16x256
  gather_S32000x256_S16x256x1_S16x256x256_2_0_n_n_0_2_1256_wf : GatherDims.WF S32000x256 S16x256x1 S16x256x256 [2] [0] [] [0] [] 2 ![1, 256]
  dot_S256x256_S256x256_S256x256_1_0_0_1_n_n_wf : DotDims.WF S256x256 S256x256 S256x256 [1] [0] [0] [1] [] []
  dot_S1x256_S256x256_S1x256_1_0_0_1_n_n_wf : DotDims.WF S1x256 S256x256 S1x256 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x256.size a ≤ S256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x256x256.size a
  hwx0_0 : ∀ i : grid0.Coords, EltTy.bits .f32 = 32 ∨ (Rect.block (s := S16x256x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S16x1x256.size a
  hwx0_7 : ∀ i : grid0.Coords, EltTy.bits .f32 = 32 ∨ (Rect.block (s := S16x1x256) S1x1x256.size (cc0_transform_7 i) (hinb0_7 i)).WholeWords (EltTy.packing .f32)

variable [Facts₀]

def gather_S32000x256_S16x256x1_S16x256x256_2_0_n_n_0_2_1256 : GatherDims S32000x256 S16x256x1 S16x256x256 where
  offsetDims := [2]
  collapsedSliceDims := [0]
  operandBatchingDims := []
  startIndicesBatchingDims := []
  startIndexMap := [0]
  indexVectorDim := 2
  sliceSizes := ![1, 256]
  wf := gather_S32000x256_S16x256x1_S16x256x256_2_0_n_n_0_2_1256_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_v6) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x256 : Shape := ⟨2, ![16, 256]⟩
abbrev S32000x256 : Shape := ⟨2, ![32000, 256]⟩
abbrev S256x256 : Shape := ⟨2, ![256, 256]⟩
abbrev S256 : Shape := ⟨1, ![256]⟩
abbrev S_ : Shape := ⟨0, ![]⟩
abbrev S16x256x1 : Shape := ⟨3, ![16, 256, 1]⟩
abbrev S16x256x256 : Shape := ⟨3, ![16, 256, 256]⟩
abbrev S1x1x256 : Shape := ⟨3, ![1, 1, 256]⟩
abbrev S16x256x1x256 : Shape := ⟨4, ![16, 256, 1, 256]⟩
abbrev S16x1x256x256 : Shape := ⟨4, ![16, 1, 256, 256]⟩
abbrev S16x256x256x256 : Shape := ⟨4, ![16, 256, 256, 256]⟩
abbrev S1x256 : Shape := ⟨2, ![1, 256]⟩

abbrev nBuf : Space → Nat
  | .hbm => 42
  | .vmem => 0
  | .smem => 0
  | _ => 0

abbrev bufTy : (tb : Table) → Fin (tcTables nBuf tb) → BufTy
  | .hbm, ⟨0, _⟩ => ⟨S16x256, .i32⟩
  | .hbm, ⟨1, _⟩ => ⟨S32000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S16x256, .i32⟩
  | .hbm, ⟨10, _⟩ => ⟨S16x256, .i1⟩
  | .hbm, ⟨11, _⟩ => ⟨S_, .i32⟩
  | .hbm, ⟨12, _⟩ => ⟨S16x256, .i32⟩
  | .hbm, ⟨13, _⟩ => ⟨S16x256, .i32⟩
  | .hbm, ⟨14, _⟩ => ⟨S16x256, .i32⟩
  | .hbm, ⟨15, _⟩ => ⟨S16x256x1, .i32⟩
  | .hbm, ⟨16, _⟩ => ⟨S16x256x256, .f32⟩
  | .hbm, ⟨17, _⟩ => ⟨S16x256x256, .f32⟩
  | .hbm, ⟨18, _⟩ => ⟨S1x1x256, .f32⟩
  | .hbm, ⟨19, _⟩ => ⟨S16x256x256, .f32⟩
  | .hbm, ⟨20, _⟩ => ⟨S16x256x256, .f32⟩
  | .hbm, ⟨21, _⟩ => ⟨S16x256x256, .f32⟩
  | .hbm, ⟨22, _⟩ => ⟨S1x1x256, .f32⟩
  | .hbm, ⟨23, _⟩ => ⟨S16x256x256, .f32⟩
  | .hbm, ⟨24, _⟩ => ⟨S16x256x256, .f32⟩
  | .hbm, ⟨25, _⟩ => ⟨S16x256x1x256, .f32⟩
  | .hbm, ⟨26, _⟩ => ⟨S16x1x256x256, .f32⟩
  | .hbm, ⟨27, _⟩ => ⟨S16x256x256x256, .f32⟩
  | .hbm, ⟨28, _⟩ => ⟨S16x256x256x256, .f32⟩
  | .hbm, ⟨29, _⟩ => ⟨S16x256x256x256, .f32⟩
  | .hbm, ⟨30, _⟩ => ⟨S_, .f32⟩
  | .hbm, ⟨31, _⟩ => ⟨S16x256x256x256, .f32⟩
  | .hbm, ⟨32, _⟩ => ⟨S16x256x256x256, .f32⟩
  | .hbm, ⟨33, _⟩ => ⟨S_, .f32⟩
  | .hbm, ⟨34, _⟩ => ⟨S16x256, .f32⟩
  | .hbm, ⟨35, _⟩ => ⟨S_, .f32⟩
  | .hbm, ⟨36, _⟩ => ⟨S16x256, .f32⟩
  | .hbm, ⟨37, _⟩ => ⟨S16x256, .f32⟩
  | .hbm, ⟨38, _⟩ => ⟨S16x256, .f32⟩
  | .hbm, ⟨39, _⟩ => ⟨S1x256, .f32⟩
  | .hbm, ⟨40, _⟩ => ⟨S16x256, .f32⟩
  | .hbm, ⟨41, _⟩ => ⟨S16x256, .f32⟩
  | _, _ => ⟨S16x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S256_S1x1x256_2 : S256.BroadcastsInDim S1x1x256 (![2] : Fin 1 → Fin S1x1x256.rank)
  bcast_S1x1x256_S16x256x256_0_1_2 : S1x1x256.BroadcastsInDim S16x256x256 (![0, 1, 2] : Fin 3 → Fin S16x256x256.rank)
  bcast_S16x256x256_S16x256x1x256_0_1_3 : S16x256x256.BroadcastsInDim S16x256x1x256 (![0, 1, 3] : Fin 3 → Fin S16x256x1x256.rank)
  bcast_S16x256x256_S16x1x256x256_0_2_3 : S16x256x256.BroadcastsInDim S16x1x256x256 (![0, 2, 3] : Fin 3 → Fin S16x1x256x256.rank)
  bcast_S16x256x1x256_S16x256x256x256_0_1_2_3 : S16x256x1x256.BroadcastsInDim S16x256x256x256 (![0, 1, 2, 3] : Fin 4 → Fin S16x256x256x256.rank)
  bcast_S16x1x256x256_S16x256x256x256_0_1_2_3 : S16x1x256x256.BroadcastsInDim S16x256x256x256 (![0, 1, 2, 3] : Fin 4 → Fin S16x256x256x256.rank)
  bcast_S_S16x256x256x256 : S_.BroadcastsInDim S16x256x256x256 (![] : Fin 0 → Fin S16x256x256x256.rank)
  reducesTo_S16x256x256x256_S16x256_d1_2 : S16x256x256x256.ReducesTo [1, 2] S16x256
  h_S_ : 0 < S_.numel
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  gather_S32000x256_S16x256x1_S16x256x256_2_0_n_n_0_2_1256_wf : GatherDims.WF S32000x256 S16x256x1 S16x256x256 [2] [0] [] [0] [] 2 ![1, 256]
  dot_S16x256x256_S256x256_S16x256x256_2_1_01_0_n_n_wf : DotDims.WF S16x256x256 S256x256 S16x256x256 [2] [1] [0, 1] [0] [] []
  dot_S16x256_S256x256_S16x256_1_1_0_0_n_n_wf : DotDims.WF S16x256 S256x256 S16x256 [1] [1] [0] [0] [] []

variable [Facts₀]

def gather_S32000x256_S16x256x1_S16x256x256_2_0_n_n_0_2_1256 : GatherDims S32000x256 S16x256x1 S16x256x256 where
  offsetDims := [2]
  collapsedSliceDims := [0]
  operandBatchingDims := []
  startIndicesBatchingDims := []
  startIndexMap := [0]
  indexVectorDim := 2
  sliceSizes := ![1, 256]
  wf := gather_S32000x256_S16x256x1_S16x256x256_2_0_n_n_0_2_1256_wf
def dot_S16x256x256_S256x256_S16x256x256_2_1_01_0_n_n : DotDims S16x256x256 S256x256 S16x256x256 where
  lhsContracting := [2]
  rhsContracting := [1]
  lhsNonContracting := [0, 1]
  rhsNonContracting := [0]
  lhsBatch := []
  rhsBatch := []
  wf := dot_S16x256x256_S256x256_S16x256x256_2_1_01_0_n_n_wf
def dot_S16x256_S256x256_S16x256_1_1_0_0_n_n : DotDims S16x256 S256x256 S16x256 where
  lhsContracting := [1]
  rhsContracting := [1]
  lhsNonContracting := [0]
  rhsNonContracting := [0]
  lhsBatch := []
  rhsBatch := []
  wf := dot_S16x256_S256x256_S16x256_1_1_0_0_n_n_wf

class Facts : Prop extends Facts₀ where

variable [Facts]
-- ==== Proof.KBody.lean ====
/-
  What the kernel's body leaves in its output block, as a pure function of the seven input blocks, at any
  float instance.

  The body computes L = xe·WlT + bl and R = xe·WrT + br, stores R in the first scratch and zeros in the second,
  and then runs 32 trips: trip k reads rows 8k … 8k+7 of R, adds to the second scratch, entry by entry, the eight
  values relu(L + row), and stores the sum back. After the loop the second scratch is read once more and the
  output row is ((1 · acc) · 2⁻¹⁶) · WrelT + brel.

  Every store of the body is a store of a whole buffer, so what a buffer holds after a store is that store's
  payload whatever it held before. This turns the loop's list of stores into a recursion on the trip count:
  the second scratch after n trips is `accAfter … n`, one application of `tripVal` per trip to what the trip
  found there.
-/
import proofs.«147073_j9620726743791_2_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 8k … 8k+7 of a 256-row matrix: what trip `k` loads from the first scratch. -/
def rows (R : Vec F S256x256 .f32) (k : Fin k0_t1_loop.trips) : Vec F S8x256 .f32 :=
  View.ld R (Rect.unit (s := S256x256) (k0_off1 k) S8x256.size (k0_off1_inb k))

/-- One trip as a function of what it finds in the second scratch: the found matrix plus the eight
    relu(L + row) terms of rows 8k … 8k+7 of `R`, with L = `k0_pay6 v0 v3 v10`. -/
def tripVal (v0 : Vec F S1x256x256 .f32) (v3 : Vec F S256x256 .f32) (v10 : Vec F S1x256 .f32)
    (R : Vec F S256x256 .f32) (k : Fin k0_t1_loop.trips) (acc : Vec F S256x256 .f32) : Vec F S256x256 .f32 :=
  k0_pay9 v0 v3 v10 (rows R k) (k0_pay2 (k0_pay6 v0 v3 v10) (rows R k)) (k0_pay3 (k0_pay6 v0 v3 v10) (rows R k))
    (k0_pay4 (F := F)) acc

/-- The second scratch after `n` trips, from what it held at loop entry. -/
def accAfter (v0 : Vec F S1x256x256 .f32) (v3 : Vec F S256x256 .f32) (v10 : Vec F S1x256 .f32)
    (R : Vec F S256x256 .f32) (a0 : Vec F S256x256 .f32) : ℕ → Vec F S256x256 .f32
  | 0 => a0
  | n + 1 => if h : n < k0_t1_loop.trips then tripVal v0 v3 v10 R ⟨n, h⟩ (accAfter v0 v3 v10 R a0 n)
      else accAfter v0 v3 v10 R a0 n

/-- A buffer read after a store of the whole buffer holds that store's payload. -/
theorem read_whole_cons (v : View sig .tc .vmem S256x256 .f32) (f : v.ty.Contents (Elt F))
    (w : Vec F S256x256 .f32) (L : List (View.Piece (Elt F) S256x256 .f32)) :
    v.read (Elt F) (v.writes (Elt F) f
      ((⟨Rect.unit (s := S256x256) ![0, 0] S256x256.size inb_S256x256_S256x256_0_0, w⟩ : View.Piece (Elt F) S256x256 .f32) :: L)) = w := by
  funext y
  exact View.read_writes_cons_unit_of_mem v f inb_S256x256_S256x256_0_0 w L y y rfl
    (fun a => by fin_cases a <;> simp)

/-- One trip's stores: a single store of the whole second scratch, of `tripVal` of what the trip finds. -/
theorem tripL_eq (𝒱 : Variants) (c : Dev nD) (bd : Option 𝒱.V) (i : grid0.Coords) (a1 : Memref sig .tc .vmem S1x256x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x1x256 .f32) (h8 : a8.IsWhole) (a9 : Memref sig .tc .vmem S256x256 .f32) (h9 : a9.IsWhole) (a10 : Memref sig .tc .vmem S256x256 .f32) (h10 : a10.IsWhole) (v0 : Vec F S1x256x256 .f32) (v3 : Vec F S256x256 .f32) (v10 : Vec F S1x256 .f32)
    (X : BufTy.Contents (Elt F) a9.view.ty) (k : Fin k0_t1_loop.trips) (f : BufTy.Contents (Elt F) a10.view.ty) :
    tripL_k0_t1 (F := F) 𝒱 c bd i a1 h1 a2 h2 a3 h3 a4 h4 a5 h5 a6 h6 a7 h7 a8 h8 a9 h9 a10 h10 v0 v3 v10 X k f
      = [⟨Rect.unit (s := S256x256) ![0, 0] S256x256.size inb_S256x256_S256x256_0_0,
          tripVal v0 v3 v10 (View.read (Elt F) a9.view X) k (View.read (Elt F) a10.view f)⟩] := by
  unfold tripL_k0_t1 trip_k0_t1
  dsimp only
  sl_unfold_words
  simp only [View.readAt_eq_ld, View.ld_unit_zero (S := S256x256) hz2]
  rfl

/-- The second scratch after the stores of the first `n` trips, read back, is `accAfter … n`. -/
theorem read_after_trips (𝒱 : Variants) (c : Dev nD) (bd : Option 𝒱.V) (i : grid0.Coords) (a1 : Memref sig .tc .vmem S1x256x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x1x256 .f32) (h8 : a8.IsWhole) (a9 : Memref sig .tc .vmem S256x256 .f32) (h9 : a9.IsWhole) (a10 : Memref sig .tc .vmem S256x256 .f32) (h10 : a10.IsWhole) (v0 : Vec F S1x256x256 .f32) (v3 : Vec F S256x256 .f32) (v10 : Vec F S1x256 .f32)
    (X : BufTy.Contents (Elt F) a9.view.ty) (G : BufTy.Contents (Elt F) a10.view.ty) :
    ∀ n, n ≤ k0_t1_loop.trips →
      View.read (Elt F) a10.view (a10.view.writes (Elt F) G
          (pb_k0_t1 (F := F) 𝒱 c bd i a1 h1 a2 h2 a3 h3 a4 h4 a5 h5 a6 h6 a7 h7 a8 h8 a9 h9 a10 h10 v0 v3 v10 X G n))
        = accAfter v0 v3 v10 (View.read (Elt F) a9.view X) (View.read (Elt F) a10.view G) n
  | 0, _ => rfl
  | n + 1, h => by
    have hn : n < k0_t1_loop.trips := h
    have ih := read_after_trips 𝒱 c bd i a1 h1 a2 h2 a3 h3 a4 h4 a5 h5 a6 h6 a7 h7 a8 h8 a9 h9 a10 h10 v0 v3 v10 X G n (Nat.le_of_lt hn)
    rw [show n + 1 = (⟨n, hn⟩ : Fin k0_t1_loop.trips).val + 1 from rfl, pb_k0_t1_succ, View.writes_append,
      tripL_eq, read_whole_cons]
    show _ = accAfter v0 v3 v10 _ _ (n + 1)
    rw [accAfter, dif_pos hn]
    dsimp only at ih ⊢
    rw [ih]

/-- What the body leaves in the output block: `k0_pay1` of the accumulator after all the trips, started from
    zeros, over R = `k0_pay7 x0 x3 x4`. -/
theorem out_eq (c : Dev nD) (i : grid0.Coords) (a1 : Memref sig .tc .vmem S1x256x256 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x1x256 .f32) (h8 : a8.IsWhole) (a9 : Memref sig .tc .vmem S256x256 .f32) (h9 : a9.IsWhole) (a10 : Memref sig .tc .vmem S256x256 .f32) (h10 : a10.IsWhole) (x0 : Vec F S1x256x256 .f32) (x1 : Vec F S256x256 .f32) (x2 : Vec F S1x256 .f32) (x3 : Vec F S256x256 .f32) (x4 : Vec F S1x256 .f32) (x5 : Vec F S256x256 .f32) (x6 : Vec F S1x256 .f32) :
    out0_A_7 c i a1 h1 a2 h2 a3 h3 a4 h4 a5 h5 a6 h6 a7 h7 a8 h8 a9 h9 a10 h10 x0 x1 x2 x3 x4 x5 x6
      = k0_pay1 (accAfter x0 x1 x2 (k0_pay7 x0 x3 x4) (k0_pay8 (F := F)) k0_t1_loop.trips)
          (k0_pay10 (F := F)) (constant S1x256 .f32 0x00000000#32) x5 x6 := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz3]
  simp only [View.readAt_eq_ld, h1.read_unread, h2.read_unread, h3.read_unread, h4.read_unread, h5.read_unread,
    h6.read_unread, h7.read_unread, View.ld_unit_zero (S := S256x256) hz2, View.ld_unit_zero (S := S1x256) hz2,
    View.ld_unit_zero (S := S1x256x256) hz3]
  rw [View.writes_append]
  have key := read_after_trips (F := F) Variants.none c none i a1 h1 a2 h2 a3 h3 a4 h4 a5 h5 a6 h6 a7 h7 a8 h8 a9 h9 a10 h10 x0 x1 x2
    (a9.view.writes (Elt F) a9.view.junk
      [⟨Rect.unit (s := S256x256) ![0, 0] S256x256.size inb_S256x256_S256x256_0_0, k0_pay7 x0 x3 x4⟩])
    (a10.view.writes (Elt F) a10.view.junk
      [⟨Rect.unit (s := S256x256) ![0, 0] S256x256.size inb_S256x256_S256x256_0_0, k0_pay8 (F := F)⟩])
    k0_t1_loop.trips (Nat.le_refl _)
  rw [read_whole_cons, read_whole_cons] at key
  exact congrArg (fun a => k0_pay1 a (k0_pay10 (F := F)) (constant S1x256 .f32 0x00000000#32) x5 x6) key

end Cert.KernelIdeal.Body

end
-- ==== Proof.Spec.lean ====
/-
  The result as one function of the argument arrays, index by index, on the extended reals, and the few laws of
  extended-real arithmetic that join the kernel's arrangement of it to the reference's.

  With Xe[b, s, ·] the embedding row of token (b, s), the left and right projections are
      L[b, i, e] = Σ_d Xe[b, i, d] · Wl[e, d] + bl[e]        R[b, j, e] = Σ_d Xe[b, j, d] · Wr[e, d] + br[e],
  the pair sum is  P[b, e] = Σ_i Σ_j max (L[b, i, e] + R[b, j, e]) 0,  and the result is
      out[b, f] = Σ_e (P[b, e] · 2⁻¹⁶) · Wrel[f, e] + brel[f].
  The kernel computes P by adding, for each i, the terms j = 8k … 8k+7 in 32 rounds to a running sum that starts at
  zero, sums over i by a product with a row of ones, and scales by the float 2⁻¹⁶; the reference sums over all (i, j)
  at once and divides by the float 65536. Only commutativity and associativity of addition, 0 + x = x, 1 · x = x and
  x · 2⁻¹⁶ = x / 65536 are used, all of which hold for every extended real: no input needs to be finite.
-/
import Idealize.ShloMosaic.PureOps.Ideal
import Idealize.ShloMosaic.PureOps.Ideal.Laws
import Idealize.ShloMosaic.Lib.ValueIdx
import Mathlib.Algebra.BigOperators.Intervals
import Mathlib.Algebra.BigOperators.Fin

noncomputable section

open scoped BigOperators

namespace Cert.PairMean

open Idealize.ShloMosaic Idealize.ShloMosaic.ValueIdx

/-! ## The four float words of the two programs -/

theorem ofBits_zero_bf16 : Ideal.ofBits .bf16 0x0000#16 = 0 := by simp [Ideal.ofBits, Ideal.ieee]
theorem ofBits_one_f32 : Ideal.ofBits .f32 0x3F800000#32 = 1 := by
  simp [Ideal.ofBits, Ideal.ieee, -EReal.coe_mul]; norm_num
theorem ofBits_inv65536 : Ideal.ofBits .f32 0x37800000#32 = ((1 / 65536 : ℝ) : EReal) := by
  simp [Ideal.ofBits, Ideal.ieee, -EReal.coe_mul]; norm_num
theorem ofBits_65536 : Ideal.ofBits .f32 0x47800000#32 = ((65536 : ℝ) : EReal) := by
  simp [Ideal.ofBits, Ideal.ieee, -EReal.coe_mul]; norm_num

/-- Scaling by the float 2⁻¹⁶ is dividing by the float 65536, for every extended real. -/
theorem scale_eq (x : EReal) :
    x * Ideal.ofBits .f32 0x37800000#32 = Ideal.div x (Ideal.ofBits .f32 0x47800000#32) := by
  rw [ofBits_inv65536, ofBits_65536, Ideal.div_coe (by norm_num : (65536 : ℝ) ≠ 0)]

/-! ## Sums taken eight terms at a time -/

/-- Eight terms added one after the other to zero, then to `a`: `a` plus their sum. -/
theorem chain8 (a : EReal) (t : Fin 8 → EReal) :
    a + ((((((((0 + t 0) + t 1) + t 2) + t 3) + t 4) + t 5) + t 6) + t 7) = a + ∑ j, t j := by
  rw [Fin.sum_univ_eight, zero_add]

/-- A sum over the first 8(n+1) naturals is the sum over the first 8n plus the next eight terms. -/
theorem range_step (g : ℕ → EReal) (n : ℕ) :
    ∑ j ∈ Finset.range (8 * (n + 1)), g j = ∑ j ∈ Finset.range (8 * n), g j + ∑ jj : Fin 8, g (8 * n + jj.val) := by
  rw [Nat.mul_succ, Finset.sum_range_add, Fin.sum_univ_eq_sum_range (fun j => g (8 * n + j)) 8]

/-! ## The result function -/

/-- A projection: Σ_d Xe[b, s, d] · W[e, d] + bias[e]. -/
def proj (Xe : (⟨3, ![16, 256, 256]⟩ : Shape).Idx → EReal) (W : (⟨2, ![256, 256]⟩ : Shape).Idx → EReal)
    (bias : (⟨1, ![256]⟩ : Shape).Idx → EReal) (b : Fin 16) (s e : Fin 256) : EReal :=
  (∑ d : Fin 256, Xe (ix3 b s d) * W (ix2 e d)) + bias (ix1 e)

/-- The pair sum P[b, e] = Σ_i Σ_j max (L[b, i, e] + R[b, j, e]) 0. -/
def pairSum (Xe : (⟨3, ![16, 256, 256]⟩ : Shape).Idx → EReal)
    (Wl : (⟨2, ![256, 256]⟩ : Shape).Idx → EReal) (bl : (⟨1, ![256]⟩ : Shape).Idx → EReal)
    (Wr : (⟨2, ![256, 256]⟩ : Shape).Idx → EReal) (br : (⟨1, ![256]⟩ : Shape).Idx → EReal)
    (b : Fin 16) (e : Fin 256) : EReal :=
  ∑ i : Fin 256, ∑ j : Fin 256, max (proj Xe Wl bl b i e + proj Xe Wr br b j e) 0

/-- The result: out[b, f] = Σ_e (P[b, e] · 2⁻¹⁶) · Wrel[f, e] + brel[f]. -/
def result (Xe : (⟨3, ![16, 256, 256]⟩ : Shape).Idx → EReal)
    (Wl : (⟨2, ![256, 256]⟩ : Shape).Idx → EReal) (bl : (⟨1, ![256]⟩ : Shape).Idx → EReal)
    (Wr : (⟨2, ![256, 256]⟩ : Shape).Idx → EReal) (br : (⟨1, ![256]⟩ : Shape).Idx → EReal)
    (Wrel : (⟨2, ![256, 256]⟩ : Shape).Idx → EReal) (brel : (⟨1, ![256]⟩ : Shape).Idx → EReal)
    (b : Fin 16) (f : Fin 256) : EReal :=
  (∑ e : Fin 256, (pairSum Xe Wl bl Wr br b e * Ideal.ofBits .f32 0x37800000#32) * Wrel (ix2 f e)) + brel (ix1 f)

end Cert.PairMean

end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.KAcc.lean ====
/-
  The kernel's body at the ideal values, entry by entry.

  Trip k adds to entry (p, q) of the running sum the eight terms max (L(p, q) + R(8k + jj, q)) 0, jj = 0 … 7, added one
  after the other from zero. So after n trips the running sum at (p, q) is the sum over j < 8n of
  max (L(p, q) + R(j, q)) 0, and after the 32 trips the sum over all 256 rows j of R.
-/
import proofs.«147073_j9620726743791_2_alg».proof.Proof.KBody
import proofs.«147073_j9620726743791_2_alg».proof.Proof.Spec
import proofs.«147073_j9620726743791_2_alg».proof.Proof.LibTiles
import proofs.«147073_j9620726743791_2_alg».proof.Proof.LibPlainDot
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.PairMean

theorem trips_eq : k0_t1_loop.trips = 32 := by decide +kernel

/-- Row 8k + jj of the 256 rows. -/
def row8 (k : Fin k0_t1_loop.trips) (jj : Fin 8) : Fin 256 :=
  ⟨8 * k.val + jj.val, by have := k.isLt; have := trips_eq; have := jj.isLt; omega⟩

/-- The eight rows trip `k` loads are rows 8k … 8k+7. -/
theorem rows_apply (R : Vec Ideal S256x256 .f32) (k : Fin k0_t1_loop.trips) (jj : Fin 8) (q : Fin 256) :
    rows (F := Ideal) R k (ix2 jj q) = R (ix2 (row8 k jj) q) := by
  unfold rows
  show R ((Rect.unit (s := S256x256) (k0_off1 k) S8x256.size (k0_off1_inb k)).emb (ix2 jj q)) = _
  congr 1
  funext a; apply Fin.ext
  show (k0_off1 k) a + 1 * ((ix2 jj q) a).val = _
  rw [k0_off1_eq]
  match a with
  | ⟨0, _⟩ => show 8 * k.val + 1 * jj.val = 8 * k.val + jj.val; omega
  | ⟨1, _⟩ => show 0 + 1 * q.val = q.val; omega

/-- Row `o` of an 8-row tile cut out as a [1, 256] row, at column q. -/
theorem slice_row (v : Vec Ideal S8x256 .f32) (o : ℕ) (ho : o < 8) (h : S8x256.Slices ![o, 0] S1x256) (q : Fin 256) :
    extractStridedSlice S1x256 ![o, 0] v h (ix2 (0 : Fin 1) q) = v (ix2 (⟨o, ho⟩ : Fin 8) q) :=
  extractStridedSlice_apply _ v h _ _ fun a => match a with
    | ⟨0, _⟩ => rfl
    | ⟨1, _⟩ => (Nat.zero_add _).symm

/-- One trip at an entry: the found value plus the eight pair terms of rows 8k … 8k+7. -/
theorem tripVal_apply (v0 : Vec Ideal S1x256x256 .f32) (v3 : Vec Ideal S256x256 .f32) (v10 : Vec Ideal S1x256 .f32)
    (R : Vec Ideal S256x256 .f32) (k : Fin k0_t1_loop.trips) (acc : Vec Ideal S256x256 .f32) (p q : Fin 256) :
    tripVal (F := Ideal) v0 v3 v10 R k acc (ix2 p q)
      = acc (ix2 p q) + ∑ jj : Fin 8, max (k0_pay6 (F := Ideal) v0 v3 v10 (ix2 p q) + R (ix2 (row8 k jj) q)) 0 := by
  rw [← chain8]
  unfold tripVal k0_pay9 k0_pay2 k0_pay3 k0_pay4
  simp only [addf_apply, maximumf_apply, extf_apply, truncf_apply, broadcast_apply, shapeCast_self,
    broadcastTo_1b_ab_apply, slice_row _ 0 (by norm_num), slice_row _ 1 (by norm_num), slice_row _ 2 (by norm_num),
    slice_row _ 3 (by norm_num), slice_row _ 4 (by norm_num), slice_row _ 5 (by norm_num), slice_row _ 6 (by norm_num),
    slice_row _ 7 (by norm_num), rows_apply, Scalar.ofBits, Ideal.ofBits_def, ofBits_zero_bf16, Ideal.ofBits_zero_f32]
  rfl

/-- The pair term of row j at column q, extended by zero beyond the 256 rows. -/
def term (Lpq : EReal) (R : Vec Ideal S256x256 .f32) (q : Fin 256) (j : ℕ) : EReal :=
  if h : j < 256 then max (Lpq + R (ix2 (⟨j, h⟩ : Fin 256) q)) 0 else 0

/-- After n trips the running sum at (p, q) is its starting value plus the pair terms of rows j < 8n. -/
theorem accAfter_apply (v0 : Vec Ideal S1x256x256 .f32) (v3 : Vec Ideal S256x256 .f32) (v10 : Vec Ideal S1x256 .f32)
    (R a0 : Vec Ideal S256x256 .f32) (p q : Fin 256) : ∀ n, n ≤ k0_t1_loop.trips →
    accAfter (F := Ideal) v0 v3 v10 R a0 n (ix2 p q)
      = a0 (ix2 p q) + ∑ j ∈ Finset.range (8 * n), term (k0_pay6 (F := Ideal) v0 v3 v10 (ix2 p q)) R q j
  | 0, _ => by simp [accAfter]
  | n + 1, h => by
    have hn : n < k0_t1_loop.trips := h
    rw [accAfter, dif_pos hn, tripVal_apply, accAfter_apply v0 v3 v10 R a0 p q n (Nat.le_of_lt hn), range_step, add_assoc]
    congr 2
    refine Finset.sum_congr rfl fun jj _ => ?_
    unfold term
    have hlt : 8 * n + jj.val < 256 := by have := trips_eq; have := jj.isLt; omega
    rw [dif_pos hlt]
    rfl

/-- After all the trips, started from zeros: the sum of the pair terms over all 256 rows of R. -/
theorem acc_final (v0 : Vec Ideal S1x256x256 .f32) (v3 : Vec Ideal S256x256 .f32) (v10 : Vec Ideal S1x256 .f32)
    (R : Vec Ideal S256x256 .f32) (p q : Fin 256) :
    accAfter (F := Ideal) v0 v3 v10 R (k0_pay8 (F := Ideal)) k0_t1_loop.trips (ix2 p q)
      = ∑ j : Fin 256, max (k0_pay6 (F := Ideal) v0 v3 v10 (ix2 p q) + R (ix2 j q)) 0 := by
  rw [accAfter_apply v0 v3 v10 R _ p q _ (Nat.le_refl _)]
  have e : 8 * k0_t1_loop.trips = 256 := by rw [trips_eq]
  have z : k0_pay8 (F := Ideal) (ix2 p q) = 0 := by
    unfold k0_pay8
    simp only [shapeCast_self, broadcast_apply, Scalar.ofBits, Ideal.ofBits_def, Ideal.ofBits_zero_f32]
  rw [e, z, zero_add]
  exact Cert.Tiles.sum_range_dite 256 (fun j => max (k0_pay6 (F := Ideal) v0 v3 v10 (ix2 p q) + R (ix2 j q)) 0)

/-! ## The matrix products and the layout operations of the body, at an entry -/

/-- A [256, 256] × [256, 256] product into zeros at (r, q): row r against column q. -/
theorem mm256_at {φ₁ φ₂ : FTy} (a : FVec Ideal S256x256 φ₁) (b : FVec Ideal S256x256 φ₂) (r q : Fin 256) :
    matmul dot_S256x256_S256x256_S256x256_1_0_0_1_n_n none a b (constant (F := Ideal) S256x256 .f32 0x00000000#32) (ix2 r q)
      = ∑ k : Fin 256, a (ix2 r k) * b (ix2 k q) :=
  (Ideal.matmul_constant_zero_apply _ none a b (ix2 r q)).trans
    (Cert.Lib.sum_contr_plain dot_S256x256_S256x256_S256x256_1_0_0_1_n_n rfl rfl rfl rfl rfl rfl (fun i j => a i * b j) r q)

/-- A [1, 256] × [256, 256] product into zeros at (0, q): the row against column q. -/
theorem mm1_at {φ₁ φ₂ : FTy} (a : FVec Ideal S1x256 φ₁) (b : FVec Ideal S256x256 φ₂) (q : Fin 256) :
    matmul dot_S1x256_S256x256_S1x256_1_0_0_1_n_n none a b (constant (F := Ideal) S1x256 .f32 0x00000000#32) (ix2 (0 : Fin 1) q)
      = ∑ k : Fin 256, a (ix2 (0 : Fin 1) k) * b (ix2 k q) :=
  (Ideal.matmul_constant_zero_apply _ none a b (ix2 (0 : Fin 1) q)).trans
    (Cert.Lib.sum_contr_plain dot_S1x256_S256x256_S1x256_1_0_0_1_n_n rfl rfl rfl rfl rfl rfl (fun i j => a i * b j) (0 : Fin 1) q)

/-- A [256] vector re-laid as [1, 1, 256], at (0, 0, f): the vector's entry f. -/
theorem cast_a_11a {α : Type} (x : S256.Idx → α) (h : S256.ShapeCasts S1x1x256) (f : Fin 256) :
    shapeCast S1x1x256 x h (ix3 (0 : Fin 1) (0 : Fin 1) f) = x (ix1 f) :=
  shapeCast_apply x h _ _ (by
    rw [Shape.rowMajor_val_one, Shape.rowMajor_val_three]
    show f.val = (0 * 1 + 0) * 256 + f.val
    omega)

/-- L at (p, e): row p of the embedding block against column e of the transposed left weight, plus the bias. -/
theorem pay6_apply (v0 : Vec Ideal S1x256x256 .f32) (v3 : Vec Ideal S256x256 .f32) (v10 : Vec Ideal S1x256 .f32)
    (p e : Fin 256) :
    k0_pay6 (F := Ideal) v0 v3 v10 (ix2 p e)
      = (∑ d : Fin 256, v0 (ix3 (0 : Fin 1) p d) * v3 (ix2 d e)) + v10 (ix2 (0 : Fin 1) e) := by
  unfold k0_pay6 k0_pay5
  simp only [truncf_apply, addf_apply, shapeCast_self, broadcastTo_1b_ab_apply, mm256_at, shapeCast_1ab_ab_apply]

/-- R at (j, e): the same with the right weight and bias. -/
theorem pay7_apply (v0 : Vec Ideal S1x256x256 .f32) (v6 : Vec Ideal S256x256 .f32) (v15 : Vec Ideal S1x256 .f32)
    (j e : Fin 256) :
    k0_pay7 (F := Ideal) v0 v6 v15 (ix2 j e)
      = (∑ d : Fin 256, v0 (ix3 (0 : Fin 1) j d) * v6 (ix2 d e)) + v15 (ix2 (0 : Fin 1) e) := by
  unfold k0_pay7 k0_pay5
  simp only [truncf_apply, addf_apply, shapeCast_self, broadcastTo_1b_ab_apply, mm256_at, shapeCast_1ab_ab_apply]

/-- The output row at f: the column sums of the accumulator (a product with a row of ones), scaled by 2⁻¹⁶, against
    column f of the transposed output weight, plus the bias. -/
theorem pay1_apply (v28 v33 : Vec Ideal S256x256 .f32) (v36 : Vec Ideal S1x256 .f32) (f : Fin 256) :
    k0_pay1 (F := Ideal) v28 (k0_pay10 (F := Ideal)) (constant S1x256 .f32 0x00000000#32) v33 v36
        (ix3 (0 : Fin 1) (0 : Fin 1) f)
      = (∑ e : Fin 256, ((∑ i : Fin 256, v28 (ix2 i e)) * Ideal.ofBits .f32 0x37800000#32) * v33 (ix2 e f))
          + v36 (ix2 (0 : Fin 1) f) := by
  unfold k0_pay1 k0_pay10
  rw [cast_a_11a, shapeCast_1a_a_apply]
  simp only [addf_apply, shapeCast_self, mm1_at, mulf_apply, broadcast_apply, Scalar.ofBits, Ideal.ofBits_def,
    ofBits_one_f32, one_mul]

/-- THE OUTPUT BLOCK at (0, 0, f), from the seven input blocks. -/
theorem block_value (x0 : Vec Ideal S1x256x256 .f32) (x1 : Vec Ideal S256x256 .f32) (x2 : Vec Ideal S1x256 .f32)
    (x3 : Vec Ideal S256x256 .f32) (x4 : Vec Ideal S1x256 .f32) (x5 : Vec Ideal S256x256 .f32)
    (x6 : Vec Ideal S1x256 .f32) (f : Fin 256) :
    k0_pay1 (F := Ideal) (accAfter x0 x1 x2 (k0_pay7 x0 x3 x4) (k0_pay8 (F := Ideal)) k0_t1_loop.trips)
        (k0_pay10 (F := Ideal)) (constant S1x256 .f32 0x00000000#32) x5 x6 (ix3 (0 : Fin 1) (0 : Fin 1) f)
      = (∑ e : Fin 256, ((∑ i : Fin 256, ∑ j : Fin 256,
            max (((∑ d : Fin 256, x0 (ix3 (0 : Fin 1) i d) * x1 (ix2 d e)) + x2 (ix2 (0 : Fin 1) e))
              + ((∑ d : Fin 256, x0 (ix3 (0 : Fin 1) j d) * x3 (ix2 d e)) + x4 (ix2 (0 : Fin 1) e))) 0)
          * Ideal.ofBits .f32 0x37800000#32) * x5 (ix2 e f)) + x6 (ix2 (0 : Fin 1) f) := by
  rw [pay1_apply]
  simp only [acc_final, pay6_apply, pay7_apply]

end Cert.KernelIdeal.Body

end
-- ==== Proof.KFinal.lean ====
/-
  From the blocks to the arrays: the region's output array as one function of the arrays the region finds.

  Grid point t stages block t of the gathered embedding rows (one batch element: a [1, 256, 256] slab), the three
  transposed weight matrices and the three bias rows whole, and writes back row t of the [16, 1, 256] output. So the
  output array after the run is, at (b, 0, f), the body's formula with the embedding slab of batch element b.
-/
import proofs.«147073_j9620726743791_2_alg».proof.Proof.KAcc
import Idealize.ShloMosaic.Lib.Pipeline.Value
import Idealize.ShloMosaic.Lib.StableHlo.Run
import Idealize.ShloMosaic.Lib.Tactic
import Idealize.ShloMosaic.Lib.ValueLayout

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.PairMean

variable (m : (ℓ : Loc nD τ sig) → Buf (Elt Ideal) ℓ) (ρ : Dev nD → PrngReg)

/-- The printed index maps, decided over the grid: the embedding window and the output window move with the point
    along their first axis; every other window stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The batch element of a grid point. -/
def batch (t : Fin cfg0.N) : Fin 16 := ⟨t.val, by have := t.isLt; have hN : cfg0.N = 16 := N_0; omega⟩

/-- The embedding window's block at point t is the slab of batch element t. -/
theorem iblk0_apply (c : Dev nD) (t : Fin cfg0.N) (p d : Fin 256) :
    iblk m c 0 t (ix3 (0 : Fin 1) p d) = (V m c main_v6 : S16x256x256.Idx → EReal) (ix3 (batch t) p d) := by
  obtain ⟨e0, e1, e2, -⟩ := idx_facts t
  show (V m c main_v6 : S16x256x256.Idx → EReal) (((cfg0.win 0).blk t).view.emb (ix3 (0 : Fin 1) p d)) = _
  congr 1
  funext a; apply Fin.ext
  match a with
  | ⟨0, _⟩ => show win0_0.index t (0 : Fin 3) * 1 + 1 * 0 = t.val; omega
  | ⟨1, _⟩ => show win0_0.index t (1 : Fin 3) * 256 + 1 * p.val = p.val; omega
  | ⟨2, _⟩ => show win0_0.index t (2 : Fin 3) * 256 + 1 * d.val = d.val; omega

/-- Window 1 stages its whole array at every point. -/
theorem iblk1_apply (c : Dev nD) (t : Fin cfg0.N) (a : Fin 256) (b : Fin 256) :
    iblk m c 1 t (ix2 a b) = (V m c main_v7 : S256x256.Idx → EReal) (ix2 a b) := by
  obtain ⟨-, -, -, e0, e1, -⟩ := idx_facts t
  show (V m c main_v7 : S256x256.Idx → EReal) (((cfg0.win 1).blk t).view.emb (ix2 a b)) = _
  congr 1
  funext ax; apply Fin.ext
  match ax with
  | ⟨0, _⟩ => show win0_1.index t (0 : Fin 2) * 256 + 1 * a.val = a.val; omega
  | ⟨1, _⟩ => show win0_1.index t (1 : Fin 2) * 256 + 1 * b.val = b.val; omega

/-- Window 2 stages its whole array at every point. -/
theorem iblk2_apply (c : Dev nD) (t : Fin cfg0.N) (a : Fin 1) (b : Fin 256) :
    iblk m c 2 t (ix2 a b) = (V m c main_v10 : S1x256.Idx → EReal) (ix2 a b) := by
  obtain ⟨-, -, -, -, -, e0, e1, -⟩ := idx_facts t
  show (V m c main_v10 : S1x256.Idx → EReal) (((cfg0.win 2).blk t).view.emb (ix2 a b)) = _
  congr 1
  funext ax; apply Fin.ext
  match ax with
  | ⟨0, _⟩ => show win0_2.index t (0 : Fin 2) * 1 + 1 * a.val = a.val; omega
  | ⟨1, _⟩ => show win0_2.index t (1 : Fin 2) * 256 + 1 * b.val = b.val; omega

/-- Window 3 stages its whole array at every point. -/
theorem iblk3_apply (c : Dev nD) (t : Fin cfg0.N) (a : Fin 256) (b : Fin 256) :
    iblk m c 3 t (ix2 a b) = (V m c main_v8 : S256x256.Idx → EReal) (ix2 a b) := by
  obtain ⟨-, -, -, -, -, -, -, e0, e1, -⟩ := idx_facts t
  show (V m c main_v8 : S256x256.Idx → EReal) (((cfg0.win 3).blk t).view.emb (ix2 a b)) = _
  congr 1
  funext ax; apply Fin.ext
  match ax with
  | ⟨0, _⟩ => show win0_3.index t (0 : Fin 2) * 256 + 1 * a.val = a.val; omega
  | ⟨1, _⟩ => show win0_3.index t (1 : Fin 2) * 256 + 1 * b.val = b.val; omega

/-- Window 4 stages its whole array at every point. -/
theorem iblk4_apply (c : Dev nD) (t : Fin cfg0.N) (a : Fin 1) (b : Fin 256) :
    iblk m c 4 t (ix2 a b) = (V m c main_v11 : S1x256.Idx → EReal) (ix2 a b) := by
  obtain ⟨-, -, -, -, -, -, -, -, -, e0, e1, -⟩ := idx_facts t
  show (V m c main_v11 : S1x256.Idx → EReal) (((cfg0.win 4).blk t).view.emb (ix2 a b)) = _
  congr 1
  funext ax; apply Fin.ext
  match ax with
  | ⟨0, _⟩ => show win0_4.index t (0 : Fin 2) * 1 + 1 * a.val = a.val; omega
  | ⟨1, _⟩ => show win0_4.index t (1 : Fin 2) * 256 + 1 * b.val = b.val; omega

/-- Window 5 stages its whole array at every point. -/
theorem iblk5_apply (c : Dev nD) (t : Fin cfg0.N) (a : Fin 256) (b : Fin 256) :
    iblk m c 5 t (ix2 a b) = (V m c main_v9 : S256x256.Idx → EReal) (ix2 a b) := by
  obtain ⟨-, -, -, -, -, -, -, -, -, -, -, e0, e1, -⟩ := idx_facts t
  show (V m c main_v9 : S256x256.Idx → EReal) (((cfg0.win 5).blk t).view.emb (ix2 a b)) = _
  congr 1
  funext ax; apply Fin.ext
  match ax with
  | ⟨0, _⟩ => show win0_5.index t (0 : Fin 2) * 256 + 1 * a.val = a.val; omega
  | ⟨1, _⟩ => show win0_5.index t (1 : Fin 2) * 256 + 1 * b.val = b.val; omega

/-- Window 6 stages its whole array at every point. -/
theorem iblk6_apply (c : Dev nD) (t : Fin cfg0.N) (a : Fin 1) (b : Fin 256) :
    iblk m c 6 t (ix2 a b) = (V m c main_v12 : S1x256.Idx → EReal) (ix2 a b) := by
  obtain ⟨-, -, -, -, -, -, -, -, -, -, -, -, -, e0, e1, -⟩ := idx_facts t
  show (V m c main_v12 : S1x256.Idx → EReal) (((cfg0.win 6).blk t).view.emb (ix2 a b)) = _
  congr 1
  funext ax; apply Fin.ext
  match ax with
  | ⟨0, _⟩ => show win0_6.index t (0 : Fin 2) * 1 + 1 * a.val = a.val; omega
  | ⟨1, _⟩ => show win0_6.index t (1 : Fin 2) * 256 + 1 * b.val = b.val; omega

/-- The body's formula over whole arrays in the layout the region finds them in: the embedding rows [16, 256, 256],
    the transposed weights [256, 256] and the biases as [1, 256] rows; batch element b, output column f. -/
def blockFn (Xe : S16x256x256.Idx → EReal) (WlT : S256x256.Idx → EReal) (bl2 : S1x256.Idx → EReal)
    (WrT : S256x256.Idx → EReal) (br2 : S1x256.Idx → EReal) (WrelT : S256x256.Idx → EReal) (brel2 : S1x256.Idx → EReal)
    (b : Fin 16) (f : Fin 256) : EReal :=
  (∑ e : Fin 256, ((∑ i : Fin 256, ∑ j : Fin 256,
      max (((∑ d : Fin 256, Xe (ix3 b i d) * WlT (ix2 d e)) + bl2 (ix2 (0 : Fin 1) e))
        + ((∑ d : Fin 256, Xe (ix3 b j d) * WrT (ix2 d e)) + br2 (ix2 (0 : Fin 1) e))) 0)
    * Ideal.ofBits .f32 0x37800000#32) * WrelT (ix2 e f)) + brel2 (ix2 (0 : Fin 1) f)

/-- The output array [16, 1, 256] as one function of the arrays the region finds. -/
def Gk (c : Dev nD) : S16x1x256.Idx → EReal := fun y =>
  blockFn (V m c main_v6) (V m c main_v7) (V m c main_v10) (V m c main_v8) (V m c main_v11) (V m c main_v9)
    (V m c main_v12) (y 0) (y 2)

/-- WHAT POINT t WRITES BACK is block t of that array. -/
theorem flushed_eq (c : Dev nD) (t : Fin cfg0.N) :
    (dats m 0 c).flushed 7 t = ((cfg0.win 7).blk t).view.read (Elt Ideal) (Gk m c) := by
  show (cfg0.win 7).cut (grid0.coords t) ((dats m 0 c).after 7 t) = _
  rw [after0_7]
  unfold outsAt0
  rw [Body.out_eq]
  obtain ⟨-, -, -, -, -, -, -, -, -, -, -, -, -, -, -, e0, e1, e2⟩ := idx_facts t
  funext y
  obtain ⟨f, rfl⟩ : ∃ f : Fin 256, y = ix3 (0 : Fin 1) (0 : Fin 1) f := ⟨y 2, funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)⟩
  refine (Body.block_value (iblk m c 0 t) (iblk m c 1 t) (iblk m c 2 t) (iblk m c 3 t) (iblk m c 4 t) (iblk m c 5 t)
    (iblk m c 6 t) f).trans ?_
  simp only [iblk0_apply, iblk1_apply, iblk2_apply, iblk3_apply, iblk4_apply, iblk5_apply, iblk6_apply]
  show _ = Gk m c (((cfg0.win 7).blk t).view.emb (ix3 (0 : Fin 1) (0 : Fin 1) f))
  have he : ((cfg0.win 7).blk t).view.emb (ix3 (0 : Fin 1) (0 : Fin 1) f) = ix3 (batch t) (0 : Fin 1) f := by
    funext a; apply Fin.ext
    match a with
    | ⟨0, _⟩ => show win0_7.index t (0 : Fin 3) * 1 + 1 * 0 = t.val; omega
    | ⟨1, _⟩ => show win0_7.index t (1 : Fin 3) * 1 + 1 * 0 = 0; omega
    | ⟨2, _⟩ => show win0_7.index t (2 : Fin 3) * 256 + 1 * f.val = f.val; omega
  rw [he]
  rfl

/-- An index of the output array is in point t's block iff each coordinate is in the block's range on its axis. -/
theorem mem_blk (t : Fin cfg0.N) (i : S16x1x256.Idx) :
    i ∈ ((cfg0.win 7).blk t).view.set ↔ ∀ a : Fin 3, win0_7.index t a * S1x1x256.size a ≤ (i a).val
      ∧ (i a).val < win0_7.index t a * S1x1x256.size a + S1x1x256.size a := by
  show i ∈ ((View.whole main_v13).slice (win0_7.rect t)).set ↔ _
  rw [View.set_slice_whole, Rect.mem_set_unit]
  exact Iff.rfl

/-- The grid point of a batch element. -/
def point (b : Fin 16) : Fin cfg0.N := ⟨b.val, by rw [show cfg0.N = 16 from N_0]; exact b.isLt⟩

/-- THE OUTPUT ARRAY after the run: every row is some point's block (row b is point b's). -/
theorem final (c : Dev nD) : (dats m 0 c).arrAt 7 cfg0.N = Gk m c :=
  (dats m 0 c).arrAt_eq_of_cover 7 (Gk m c) (fun t _ => flushed_eq m c t) fun i =>
    ⟨point (i 0), flush0_7 _, by
      rw [mem_blk]
      obtain ⟨-, -, -, -, -, -, -, -, -, -, -, -, -, -, -, e0, e1, e2⟩ := idx_facts (point (i 0))
      have h0 : (point (i 0)).val = (i 0).val := rfl
      have h1 : (i 1).val < 1 := (i 1).isLt
      have h2 : (i 2).val < 256 := (i 2).isLt
      intro a
      match a with
      | ⟨0, _⟩ =>
        show win0_7.index (point (i 0)) (0 : Fin 3) * 1 ≤ (i 0).val ∧ (i 0).val < win0_7.index (point (i 0)) (0 : Fin 3) * 1 + 1
        omega
      | ⟨1, _⟩ =>
        show win0_7.index (point (i 0)) (1 : Fin 3) * 1 ≤ (i 1).val ∧ (i 1).val < win0_7.index (point (i 0)) (1 : Fin 3) * 1 + 1
        omega
      | ⟨2, _⟩ =>
        show win0_7.index (point (i 0)) (2 : Fin 3) * 256 ≤ (i 2).val ∧ (i 2).val < win0_7.index (point (i 0)) (2 : Fin 3) * 256 + 256
        omega⟩

/-! ## The arrays the host operations before the region write, as operations of the arguments -/

/-- The gathered embedding rows: the gather of the table at the token indices, negative ones wrapped by the table's
    length first. -/
def gathered (X : (⟨S16x256, .i32⟩ : BufTy).Contents (Elt Ideal)) (emb : (⟨S32000x256, .f32⟩ : BufTy).Contents (Elt Ideal)) :
    (⟨S16x256x256, .f32⟩ : BufTy).Contents (Elt Ideal) :=
  Host.gather gather_S32000x256_S16x256x1_S16x256x256_2_0_n_n_0_2_1256 emb
    (broadcastInDim S16x256x1 ![0, 1] bcast_S16x256_S16x256x1_0_1
      (select (cmpi .slt X (broadcastInDim S16x256 ![] bcast_S_S16x256 (constantI S_ 32 0#32)))
        (addi X (broadcastInDim S16x256 ![] bcast_S_S16x256 (constantI S_ 32 32000#32))) X))

theorem V_v6 (c : Dev nD) : (V m c main_v6 : S16x256x256.Idx → EReal)
    = gathered (m ((c : Thread nD τ).loc main_arg0)) (m ((c : Thread nD τ).loc main_arg1)) := by
  show StableHlo.after hostOps0 (fun b => m (c, b)) (Proc.devRef .tc main_v6) = _
  after_results
  rfl

theorem V_v7 (c : Dev nD) : (V m c main_v7 : S256x256.Idx → EReal)
    = transpose S256x256 [1, 0] (m ((c : Thread nD τ).loc main_arg2)) transposes_S256x256_S256x256_1_0 := by
  show StableHlo.after hostOps0 (fun b => m (c, b)) (Proc.devRef .tc main_v7) = _
  after_results

theorem V_v8 (c : Dev nD) : (V m c main_v8 : S256x256.Idx → EReal)
    = transpose S256x256 [1, 0] (m ((c : Thread nD τ).loc main_arg4)) transposes_S256x256_S256x256_1_0 := by
  show StableHlo.after hostOps0 (fun b => m (c, b)) (Proc.devRef .tc main_v8) = _
  after_results

theorem V_v9 (c : Dev nD) : (V m c main_v9 : S256x256.Idx → EReal)
    = transpose S256x256 [1, 0] (m ((c : Thread nD τ).loc main_arg6)) transposes_S256x256_S256x256_1_0 := by
  show StableHlo.after hostOps0 (fun b => m (c, b)) (Proc.devRef .tc main_v9) = _
  after_results

theorem V_v10 (c : Dev nD) : (V m c main_v10 : S1x256.Idx → EReal)
    = shapeCast S1x256 (m ((c : Thread nD τ).loc main_arg3)) shapeCasts_S256_S1x256 := by
  show StableHlo.after hostOps0 (fun b => m (c, b)) (Proc.devRef .tc main_v10) = _
  after_results
  rfl

theorem V_v11 (c : Dev nD) : (V m c main_v11 : S1x256.Idx → EReal)
    = shapeCast S1x256 (m ((c : Thread nD τ).loc main_arg5)) shapeCasts_S256_S1x256 := by
  show StableHlo.after hostOps0 (fun b => m (c, b)) (Proc.devRef .tc main_v11) = _
  after_results
  rfl

theorem V_v12 (c : Dev nD) : (V m c main_v12 : S1x256.Idx → EReal)
    = shapeCast S1x256 (m ((c : Thread nD τ).loc main_arg7)) shapeCasts_S256_S1x256 := by
  show StableHlo.after hostOps0 (fun b => m (c, b)) (Proc.devRef .tc main_v12) = _
  after_results
  rfl

/-- The kernel's result [16, 256] as one function of the ARGUMENT arrays: the specification's `result` over the
    gathered rows. -/
def outArr (c : Dev nD) : S16x256.Idx → EReal := fun y =>
  result (gathered (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7)) (y 0) (y 1)

/-- A transposed [256, 256] matrix at (d, e) is the matrix at (e, d). -/
theorem tr_apply (W : S256x256.Idx → EReal) (d e : Fin 256) :
    transpose S256x256 [1, 0] W transposes_S256x256_S256x256_1_0 (ix2 d e) = W (ix2 e d) :=
  transpose_ix2_apply W transposes_S256x256_S256x256_1_0 d e

/-- A [256] vector re-laid as a [1, 256] row at (0, e) is the vector at e. -/
theorem row_apply (v : S256.Idx → EReal) (e : Fin 256) :
    shapeCast S1x256 v shapeCasts_S256_S1x256 (ix2 (0 : Fin 1) e) = v (ix1 e) :=
  shapeCast_a_1a_apply v shapeCasts_S256_S1x256 (0 : Fin 1) e

/-- The region's output array at (b, 0, f) is the specification's result at (b, f): a transposed weight read at
    (d, e) is the weight at (e, d), and a bias re-laid as a row read at (0, e) is the bias at e. -/
theorem Gk_apply (c : Dev nD) (b : Fin 16) (f : Fin 256) :
    Gk m c (ix3 b (0 : Fin 1) f) = outArr m c (ix2 b f) := by
  have hWl : ∀ d e : Fin 256, (V m c main_v7 : S256x256.Idx → EReal) (ix2 d e)
      = (m ((c : Thread nD τ).loc main_arg2) : S256x256.Idx → EReal) (ix2 e d) := fun d e => by
    rw [V_v7]; exact tr_apply _ d e
  have hWr : ∀ d e : Fin 256, (V m c main_v8 : S256x256.Idx → EReal) (ix2 d e)
      = (m ((c : Thread nD τ).loc main_arg4) : S256x256.Idx → EReal) (ix2 e d) := fun d e => by
    rw [V_v8]; exact tr_apply _ d e
  have hWrel : ∀ d e : Fin 256, (V m c main_v9 : S256x256.Idx → EReal) (ix2 d e)
      = (m ((c : Thread nD τ).loc main_arg6) : S256x256.Idx → EReal) (ix2 e d) := fun d e => by
    rw [V_v9]; exact tr_apply _ d e
  have hbl : ∀ e : Fin 256, (V m c main_v10 : S1x256.Idx → EReal) (ix2 (0 : Fin 1) e)
      = (m ((c : Thread nD τ).loc main_arg3) : S256.Idx → EReal) (ix1 e) := fun e => by
    rw [V_v10]; exact row_apply _ e
  have hbr : ∀ e : Fin 256, (V m c main_v11 : S1x256.Idx → EReal) (ix2 (0 : Fin 1) e)
      = (m ((c : Thread nD τ).loc main_arg5) : S256.Idx → EReal) (ix1 e) := fun e => by
    rw [V_v11]; exact row_apply _ e
  have hbrel : ∀ e : Fin 256, (V m c main_v12 : S1x256.Idx → EReal) (ix2 (0 : Fin 1) e)
      = (m ((c : Thread nD τ).loc main_arg7) : S256.Idx → EReal) (ix1 e) := fun e => by
    rw [V_v12]; exact row_apply _ e
  show blockFn (V m c main_v6) (V m c main_v7) (V m c main_v10) (V m c main_v8) (V m c main_v11) (V m c main_v9)
      (V m c main_v12) b f
    = result (gathered (m ((c : Thread nD τ).loc main_arg0)) (m ((c : Thread nD τ).loc main_arg1)))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) b f
  unfold blockFn result pairSum proj
  simp only [hWl, hWr, hWrel, hbl, hbr, hbrel]
  rw [V_v6]

end Cert.KernelIdeal.KValue

end
-- ==== Proof.KRun.lean ====
/-
  The kernel's run, read: @main's result is the specification's function of the argument arrays.

  After the region the host re-lays the [16, 1, 256] output as [16, 256]: entry (b, f) of the result is entry
  (b, 0, f) of the region's output array.
-/
import proofs.«147073_j9620726743791_2_alg».proof.Proof.KFinal

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.PairMean

variable (m : (ℓ : Loc nD τ sig) → Buf (Elt Ideal) ℓ) (ρ : Dev nD → PrngReg)

/-- What the host line after the region leaves in @main's result. -/
theorem tail_eq (c : Dev nD) :
    (Pipeline.afterTail₀ cfgs (dats m) 0 (V0 m) [hostOps1] c main_v14 : S16x256.Idx → EReal) = outArr m c := by
  unfold Pipeline.afterTail₀
  show StableHlo.after hostOps1 _ (Proc.devRef .tc main_v14) = _
  after_results
  have e : Pipeline.withArrays (cfgs 0).spec c (V0 m c) (fun w => (dats m 0 c).arrAt w (cfgs 0).N)
      (Proc.devRef .tc main_v13) = Gk m c :=
    (Pipeline.withArrays_arr spec0 launch0.win.arr_inj c _ _ 7).trans (final m c)
  funext y
  obtain ⟨b, f, rfl⟩ : ∃ (b : Fin 16) (f : Fin 256), y = ix2 b f := ⟨y 0, y 1, eq_ix2 y⟩
  show shapeCast S16x256 (Pipeline.withArrays (cfgs 0).spec c (V0 m c) (fun w => (dats m 0 c).arrAt w (cfgs 0).N)
      (Proc.devRef .tc main_v13)) shapeCasts_S16x1x256_S16x256 (ix2 b f) = _
  rw [e, shapeCast_apply (Gk m c) shapeCasts_S16x1x256_S16x256 (ix2 b f) (ix3 b (0 : Fin 1) f) (by
    rw [Shape.rowMajor_val_three, Shape.rowMajor_val_two]
    show (b.val * 1 + 0) * 256 + f.val = b.val * 256 + f.val
    omega)]
  exact Gk_apply m c b f

/-- THE RUN: every weakly fair execution of the idealized kernel terminates with @main's result at the specification's
    function of the arguments, and the arguments unchanged. -/
theorem run : θ_run defs (onTc (τ := τ) (main (F := Ideal))) ⟨m, fun _ => 0, ρ⟩ (fun r => ∀ c : Dev nD,
      r.2.mem ((c.tc : Thread nD τ).loc main_v14) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.KValue

end
-- ==== Proof.LibLeadSum.lean ====
/-
  Sums and maxima over the leading axes of a rank-4 array, read by coordinates.

  A host reduction of an array `x` of shape [a, b, c, d] over its first three axes gives, at the channel `j`,
  the initial value plus the sum of `x (i0, i1, i2, j)` over every `(i0, i1, i2)`: the set of indices that drop to
  `j` is exactly the set of indices whose last coordinate is `j`.  Stated for the extended reals' sum the host
  reduction denotes at the ideal values.
-/
import Idealize.ShloMosaic.Lib.ValueIdx
import Idealize.ShloMosaic.PureOps.Ideal.Laws

noncomputable section

namespace Cert.LibLeadSum

open Idealize.ShloMosaic Idealize.ShloMosaic.ValueIdx
open scoped BigOperators

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-- The host's sum over the three leading axes of a rank-4 array, at a channel: the initial value plus the sum over
    every leading coordinate triple. -/
theorem hostReduceAdd_lead3 {a b c d : Nat}
    (h : (⟨4, ![a, b, c, d]⟩ : Shape).ReducesTo [0, 1, 2] ⟨1, ![d]⟩) (x : (⟨4, ![a, b, c, d]⟩ : Shape).Idx → EReal)
    (init : EReal) (j : Fin d) :
    Ideal.hostReduceAdd h x init (ix1 j) = init + ∑ i0 : Fin a, ∑ i1 : Fin b, ∑ i2 : Fin c, x (ix4 i0 i1 i2 j) := by
  unfold Ideal.hostReduceAdd
  congr 1
  rw [Finset.sum_filter, sum_idx4]
  refine Finset.sum_congr rfl fun i0 _ => Finset.sum_congr rfl fun i1 _ => Finset.sum_congr rfl fun i2 _ => ?_
  have hk : (⟨4, ![a, b, c, d]⟩ : Shape).kept [0, 1, 2] = [(3 : Fin 4)] := by
    unfold Shape.kept; rfl
  have hb : ((0 : Fin 1) : ℕ) < ((⟨4, ![a, b, c, d]⟩ : Shape).kept [0, 1, 2]).length := by rw [hk]; simp
  have hc : ((⟨4, ![a, b, c, d]⟩ : Shape).kept [0, 1, 2])[((0 : Fin 1) : ℕ)] = (3 : Fin 4) := by simp [hk]
  have key : ∀ i3 : Fin d, (h.drop (ix4 i0 i1 i2 i3) = ix1 j) ↔ i3 = j := by
    intro i3
    constructor
    · intro e
      have e0 : ((h.drop (ix4 i0 i1 i2 i3) (0 : Fin 1) : Fin d) : ℕ) = ((ix1 j) (0 : Fin 1) : Fin d).val :=
        congrArg (fun f : (⟨1, ![d]⟩ : Shape).Idx => ((f (0 : Fin 1) : Fin d) : ℕ)) e
      rw [Shape.ReducesTo.drop_apply_val_of_eq h _ (0 : Fin 1) (3 : Fin 4) hb hc] at e0
      exact Fin.ext e0
    · rintro rfl
      funext q
      have hq : q = (0 : Fin 1) := Subsingleton.elim (α := Fin 1) _ _
      subst hq
      exact Fin.ext (Shape.ReducesTo.drop_apply_val_of_eq h _ (0 : Fin 1) (3 : Fin 4) hb hc)
  simp only [key, Finset.sum_ite_eq', Finset.mem_univ, if_true]

end Cert.LibLeadSum

end
-- ==== Proof.LibMidSum.lean ====
/-
  A host sum over the two middle axes of a rank-4 array, read by coordinates.

  A host reduction of an array x of shape [a, b, c, d] over its axes 1 and 2 gives, at (i0, i3), the initial value
  plus the sum of x (i0, p, q, i3) over every (p, q): the indices that drop to (i0, i3) are exactly those whose first
  coordinate is i0 and whose last is i3. Stated for the extended reals' sum the host reduction denotes at the ideal
  values; generic in the four extents.
-/
import Idealize.ShloMosaic.Lib.ValueIdx
import Idealize.ShloMosaic.PureOps.Ideal.Laws
import proofs.«147073_j9620726743791_2_alg».proof.Proof.LibLeadSum

noncomputable section

namespace Cert.LibMidSum

open Idealize.ShloMosaic Idealize.ShloMosaic.ValueIdx Cert.LibLeadSum
open scoped BigOperators

/-- The host's sum over axes 1 and 2 of a rank-4 array, at (i0, i3): the initial value plus the sum over every pair
    of middle coordinates. -/
theorem hostReduceAdd_mid2 {a b c d : Nat}
    (h : (⟨4, ![a, b, c, d]⟩ : Shape).ReducesTo [1, 2] ⟨2, ![a, d]⟩) (x : (⟨4, ![a, b, c, d]⟩ : Shape).Idx → EReal)
    (init : EReal) (i0 : Fin a) (i3 : Fin d) :
    Ideal.hostReduceAdd h x init (ix2 i0 i3) = init + ∑ p : Fin b, ∑ q : Fin c, x (ix4 i0 p q i3) := by
  unfold Ideal.hostReduceAdd
  congr 1
  rw [Finset.sum_filter, sum_idx4]
  have hk : (⟨4, ![a, b, c, d]⟩ : Shape).kept [1, 2] = [(0 : Fin 4), (3 : Fin 4)] := by
    unfold Shape.kept; rfl
  have hb0 : ((0 : Fin 2) : ℕ) < ((⟨4, ![a, b, c, d]⟩ : Shape).kept [1, 2]).length := by rw [hk]; simp
  have hb1 : ((1 : Fin 2) : ℕ) < ((⟨4, ![a, b, c, d]⟩ : Shape).kept [1, 2]).length := by rw [hk]; simp
  have hc0 : ((⟨4, ![a, b, c, d]⟩ : Shape).kept [1, 2])[((0 : Fin 2) : ℕ)] = (0 : Fin 4) := by simp [hk]
  have hc1 : ((⟨4, ![a, b, c, d]⟩ : Shape).kept [1, 2])[((1 : Fin 2) : ℕ)] = (3 : Fin 4) := by simp [hk]
  have key : ∀ (a' : Fin a) (p : Fin b) (q : Fin c) (d' : Fin d),
      (h.drop (ix4 a' p q d') = ix2 i0 i3) ↔ (a' = i0 ∧ d' = i3) := by
    intro a' p q d'
    constructor
    · intro e
      have e0 : ((h.drop (ix4 a' p q d') (0 : Fin 2) : Fin a) : ℕ) = ((ix2 i0 i3) (0 : Fin 2) : Fin a).val :=
        congrArg (fun f : (⟨2, ![a, d]⟩ : Shape).Idx => ((f (0 : Fin 2) : Fin a) : ℕ)) e
      have e1 : ((h.drop (ix4 a' p q d') (1 : Fin 2) : Fin d) : ℕ) = ((ix2 i0 i3) (1 : Fin 2) : Fin d).val :=
        congrArg (fun f : (⟨2, ![a, d]⟩ : Shape).Idx => ((f (1 : Fin 2) : Fin d) : ℕ)) e
      rw [Shape.ReducesTo.drop_apply_val_of_eq h _ (0 : Fin 2) (0 : Fin 4) hb0 hc0] at e0
      rw [Shape.ReducesTo.drop_apply_val_of_eq h _ (1 : Fin 2) (3 : Fin 4) hb1 hc1] at e1
      exact ⟨Fin.ext e0, Fin.ext e1⟩
    · rintro ⟨rfl, rfl⟩
      funext r
      match r with
      | ⟨0, _⟩ => exact Fin.ext (Shape.ReducesTo.drop_apply_val_of_eq h _ (0 : Fin 2) (0 : Fin 4) hb0 hc0)
      | ⟨1, _⟩ => exact Fin.ext (Shape.ReducesTo.drop_apply_val_of_eq h _ (1 : Fin 2) (3 : Fin 4) hb1 hc1)
  rw [Finset.sum_eq_single i0]
  · refine Finset.sum_congr rfl fun p _ => Finset.sum_congr rfl fun q _ => ?_
    simp only [key, eq_self_iff_true, true_and, Finset.sum_ite_eq', Finset.mem_univ, if_true]
  · intro a' _ hne
    refine Finset.sum_eq_zero fun p _ => Finset.sum_eq_zero fun q _ => Finset.sum_eq_zero fun d' _ => ?_
    rw [if_neg]
    rw [key]
    exact fun hh => hne hh.1
  · intro hh; exact absurd (Finset.mem_univ _) hh

end Cert.LibMidSum

end
-- ==== Proof.RefG.lean ====
/-
  The reference's result is the specification's function of its arguments.

  Read one operation at a time: the two projections are sums over the embedding axis plus a bias, broadcast against
  each other over the pair axes (i, j), added, clamped below at zero, summed over (i, j) from zero, divided by the
  float 65536 (which is the product with the float 2⁻¹⁶), and contracted against the output weight, plus its bias.
-/
import proofs.«147073_j9620726743791_2_alg».proof.Proof.Gen.ReferenceIdeal.Read
import proofs.«147073_j9620726743791_2_alg».proof.Proof.Spec
import proofs.«147073_j9620726743791_2_alg».proof.Proof.LibMidSum
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PairMean Cert.LibMidSum

variable (x0 : (⟨S16x256, .i32⟩ : BufTy).Contents (Elt Ideal)) (x1 : (⟨S32000x256, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The left projection at (b, s, e). -/
theorem v10_at (b : Fin 16) (s e : Fin 256) :
    val_main_v10 (F := Ideal) x0 x1 x2 x3 (ix3 b s e) = proj (val_main_v6 (F := Ideal) x0 x1) x2 x3 b s e := by
  have e1 : ∀ k : Fin 256, lidx_main_v7 (ix3 b s e) k = ix3 b s k := fun k => funext fun a => Fin.ext (by
    match a with | ⟨0, _⟩ => rfl | ⟨1, _⟩ => rfl | ⟨2, _⟩ => rfl)
  have e2 : ∀ k : Fin 256, ridx_main_v7 (ix3 b s e) k = ix2 e k := fun k => funext fun a => Fin.ext (by
    match a with | ⟨0, _⟩ => rfl | ⟨1, _⟩ => rfl)
  have e3 : idx_main_v8 (idx_main_v9 (ix3 b s e)) = ix1 e := funext fun a => Fin.ext (by
    match a with | ⟨0, _⟩ => rfl)
  rw [val_main_v10_apply, val_main_v7_apply, val_main_v9_apply, val_main_v8_apply]
  simp only [e1, e2, e3]
  rfl

/-- The right projection at (b, s, e). -/
theorem v14_at (b : Fin 16) (s e : Fin 256) :
    val_main_v14 (F := Ideal) x0 x1 x4 x5 (ix3 b s e) = proj (val_main_v6 (F := Ideal) x0 x1) x4 x5 b s e := by
  have e1 : ∀ k : Fin 256, lidx_main_v11 (ix3 b s e) k = ix3 b s k := fun k => funext fun a => Fin.ext (by
    match a with | ⟨0, _⟩ => rfl | ⟨1, _⟩ => rfl | ⟨2, _⟩ => rfl)
  have e2 : ∀ k : Fin 256, ridx_main_v11 (ix3 b s e) k = ix2 e k := fun k => funext fun a => Fin.ext (by
    match a with | ⟨0, _⟩ => rfl | ⟨1, _⟩ => rfl)
  have e3 : idx_main_v12 (idx_main_v13 (ix3 b s e)) = ix1 e := funext fun a => Fin.ext (by
    match a with | ⟨0, _⟩ => rfl)
  rw [val_main_v14_apply, val_main_v11_apply, val_main_v13_apply, val_main_v12_apply]
  simp only [e1, e2, e3]
  rfl

/-- The clamped pair term at (b, i, j, e). -/
theorem v20_at (b : Fin 16) (i j e : Fin 256) :
    val_main_v20 (F := Ideal) x0 x1 x2 x3 x4 x5 (ix4 b i j e)
      = max (proj (val_main_v6 (F := Ideal) x0 x1) x2 x3 b i e + proj (val_main_v6 (F := Ideal) x0 x1) x4 x5 b j e) 0 := by
  have i1 : idx_main_v15 (idx_main_v17 (ix4 b i j e)) = ix3 b i e := funext fun a => Fin.ext (by
    match a with | ⟨0, _⟩ => rfl | ⟨1, _⟩ => rfl | ⟨2, _⟩ => rfl)
  have i2 : idx_main_v16 (idx_main_v18 (ix4 b i j e)) = ix3 b j e := funext fun a => Fin.ext (by
    match a with | ⟨0, _⟩ => rfl | ⟨1, _⟩ => rfl | ⟨2, _⟩ => rfl)
  rw [val_main_v20_apply, val_main_v19_apply, val_main_v17_apply, val_main_v15_apply, val_main_v18_apply,
    val_main_v16_apply, val_main_call0_v0_apply, val_main_call0_cst_apply, i1, i2, v10_at, v14_at]
  simp only [Ideal.maximumf_def, Ideal.addf_def, Ideal.ofBits_def, Ideal.ofBits_zero_f32]

/-- The pair sum at (b, e): the host's sum over the two pair axes, from zero. -/
theorem v21_at (b : Fin 16) (e : Fin 256) :
    val_main_v21 (F := Ideal) x0 x1 x2 x3 x4 x5 (ix2 b e)
      = pairSum (val_main_v6 (F := Ideal) x0 x1) x2 x3 x4 x5 b e := by
  unfold val_main_v21 Host.reduceAdd
  rw [Ideal.hostReduceAdd_def]
  refine (hostReduceAdd_mid2 reducesTo_S16x256x256x256_S16x256_d1_2 _ _ b e).trans ?_
  rw [val_main_cst_apply, Ideal.ofBits_def, Ideal.ofBits_zero_f32, zero_add]
  unfold pairSum
  exact Finset.sum_congr rfl fun i _ => Finset.sum_congr rfl fun j _ => v20_at x0 x1 x2 x3 x4 x5 b i j e

/-- THE REFERENCE'S RESULT at (b, f). -/
theorem result_at (b : Fin 16) (f : Fin 256) :
    val_main_v27 (F := Ideal) x0 x1 x2 x3 x4 x5 x6 x7 (ix2 b f)
      = result (val_main_v6 (F := Ideal) x0 x1) x2 x3 x4 x5 x6 x7 b f := by
  have e1 : ∀ k : Fin 256, lidx_main_v24 (ix2 b f) k = ix2 b k := fun k => funext fun a => Fin.ext (by
    match a with | ⟨0, _⟩ => rfl | ⟨1, _⟩ => rfl)
  have e2 : ∀ k : Fin 256, ridx_main_v24 (ix2 b f) k = ix2 f k := fun k => funext fun a => Fin.ext (by
    match a with | ⟨0, _⟩ => rfl | ⟨1, _⟩ => rfl)
  have e3 : idx_main_v25 (idx_main_v26 (ix2 b f)) = ix1 f := funext fun a => Fin.ext (by
    match a with | ⟨0, _⟩ => rfl)
  rw [val_main_v27_apply, val_main_v24_apply, val_main_v26_apply, val_main_v25_apply]
  unfold result
  simp only [e1, e2, e3, val_main_v23_apply, val_main_v22_apply, val_main_cst_1_apply, v21_at, Ideal.hostDivf_def,
    Ideal.ofBits_def, ← scale_eq, Ideal.addf_def]

end Cert.ReferenceIdeal.RefValue

end
-- ==== Proof.lean ====
/-
  The kernel computes, per batch element b, the left and right projections L = Xe·Wlᵀ + bl and R = Xe·Wrᵀ + br of the
  gathered embedding rows, the mean over all token pairs (i, j) of max (L[i] + R[j]) 0, and that mean's projection
  by Wrel plus brel; the reference computes the same with the pair tensor written out.

  At the ideal values both results are, at (b, f),
      Σ_e ((Σ_i Σ_j max (L[b, i, e] + R[b, j, e]) 0) · 2⁻¹⁶) · Wrel[f, e] + brel[f]
  (Proof/Spec.lean `result`). The kernel reaches it by a running sum over j taken eight rows at a time in 32 rounds
  (Proof/KBody.lean: the loop's stores as a recursion; Proof/KAcc.lean: the running sum entry by entry), a product with
  a row of ones for the sum over i and a scale by the float 2⁻¹⁶ (Proof/KFinal.lean, Proof/KRun.lean: from the blocks to
  the arrays and through the host lines around the region). The reference sums over (i, j) at once and divides by
  the float 65536 (Proof/RefG.lean). The two agree by regrouping a finite sum, 0 + x = x, 1 · x = x and
  x · 2⁻¹⁶ = x / 65536, which hold for every extended real, so the precondition is not used. The gathered rows are one
  and the same term of the token indices and the table in both programs, and are never opened.
-/
import proofs.«147073_j9620726743791_2_alg».proof.Defs
import proofs.«147073_j9620726743791_2_alg».proof.Proof.Gen.Kernel
import proofs.«147073_j9620726743791_2_alg».proof.Proof.Gen.Kernel.Skeleton
import proofs.«147073_j9620726743791_2_alg».proof.Proof.Gen.Kernel.Loops
import proofs.«147073_j9620726743791_2_alg».proof.Proof.Gen.Kernel.Launch
import proofs.«147073_j9620726743791_2_alg».proof.Proof.Gen.Kernel.Points
import proofs.«147073_j9620726743791_2_alg».proof.Proof.Gen.Kernel.Frame
import proofs.«147073_j9620726743791_2_alg».proof.Proof.Gen.KernelIdeal
import proofs.«147073_j9620726743791_2_alg».proof.Proof.Gen.KernelIdeal.Skeleton
import proofs.«147073_j9620726743791_2_alg».proof.Proof.Gen.KernelIdeal.Loops
import proofs.«147073_j9620726743791_2_alg».proof.Proof.Gen.KernelIdeal.Launch
import proofs.«147073_j9620726743791_2_alg».proof.Proof.Gen.KernelIdeal.Points
import proofs.«147073_j9620726743791_2_alg».proof.Proof.Gen.KernelIdeal.Frame
import proofs.«147073_j9620726743791_2_alg».proof.Proof.Gen.ReferenceIdeal
import proofs.«147073_j9620726743791_2_alg».proof.Proof.Gen.ReferenceIdeal.Run
import proofs.«147073_j9620726743791_2_alg».proof.Proof.Gen.ReferenceIdeal.Read
import proofs.«147073_j9620726743791_2_alg».proof.Proof.KRun
import proofs.«147073_j9620726743791_2_alg».proof.Proof.RefG
import proofs.«147073_j9620726743791_2_alg».proof.Proof.Gen.Pre_finite_inputs
import Idealize.ShloMosaic.Adequacy
import Idealize.ShloMosaic.Init

noncomputable section

namespace Cert.Proof

open Idealize.ShloMosaic Idealize.SL.Sem Idealize.ShloMosaic.TcCoe

/-- The reference's last stage, of the kernel's argument arrays, is the kernel's result function: both are the
    specification's `result` over the same gathered rows. -/
theorem ref_result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.KValue.outArr m c := by
  funext y
  obtain ⟨b, f, rfl⟩ : ∃ (b : Fin 16) (f : Fin 256), y = ValueIdx.ix2 b f := ⟨y 0, y 1, ValueIdx.eq_ix2 y⟩
  rw [Cert.ReferenceIdeal.RefValue.result_at]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both idealized programs end with the specification's result. -/
theorem algebraic : Cert.algebraic_KernelIdeal_ReferenceIdeal := by
  intro m ρ m' ρ' _ hagree
  refine ⟨fun c => Cert.KernelIdeal.KValue.outArr m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v27_eq, h0, h1, h2, h3, h4, h5, h6, h7]
  exact ref_result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
